-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) (main_arg1 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  main_v8
-- ==== Kernel.lean ====
abbrev S16384x1024 : Shape := ⟨2, ![16384, 1024]⟩
abbrev S1x1 : Shape := ⟨2, ![1, 1]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1, .f32⟩
  | .hbm, ⟨3, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1, .f32⟩
  | .local _ .vmem, ⟨5, _⟩ => ⟨S1x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v33 : BitVec 1 := Scalar.cmpi .eq arg0 c15_i32
  let v34 : BitVec 32 := Scalar.extui v33
  let c0_i32_15 : BitVec 32 := 0#32
  let v35 : BitVec 1 := Scalar.cmpi .ne v34 c0_i32_15
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x1024 : Shape := ⟨2, ![16384, 1024]⟩
abbrev S_ : Shape := ⟨0, ![]⟩
abbrev S16384 : Shape := ⟨1, ![16384]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384, .f32⟩
  | .hbm, ⟨13, _⟩ => ⟨S_, .f32⟩
  | .hbm, ⟨14, _⟩ => ⟨S16384, .f32⟩
  | .hbm, ⟨15, _⟩ => ⟨S16384, .f32⟩
  | .hbm, ⟨16, _⟩ => ⟨S_, .f32⟩
  | .hbm, ⟨17, _⟩ => ⟨S16384, .f32⟩
  | .hbm, ⟨18, _⟩ => ⟨S16384, .f32⟩
  | .hbm, ⟨19, _⟩ => ⟨S16384, .f32⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_cst_6 : Ref sig .tc := ⟨.hbm, 31, rfl⟩
abbrev main_v16 : Ref sig .tc := ⟨.hbm, 32, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S_S16384 : S_.BroadcastsInDim S16384 (![] : Fin 0 → Fin S16384.rank)
  reducesTo_S16384_S_d0 : S16384.ReducesTo [0] S_

variable [Facts₀]

class Facts : Prop extends Facts₀ where

variable [Facts]
-- ==== Proof.Cases.lean ====
/-
  What each control case of the body leaves behind, as the body's stored values.

  The body always adds the block's sum into the one-entry accumulator, and the accumulator's old contents are: zero,
  freshly stored, at the first grid point; what the previous point left, at every other point. At the last point it
  also stores the accumulator, divided, into the output's block. The symbolic run of each case lists the stores it met;
  here each list is read back: the last store through the whole one-entry rectangle is what the buffer holds, and a load
  that follows a store through the same rectangle reads what was stored.
-/
import proofs.«128544_j214748364897_2_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- First point: the accumulator is zeroed, read back, and left at zero plus the block's sum. -/
theorem acc_first (c : Dev nD) (i : grid0.Coords) (a1 : Memref sig .tc .vmem S1024x1024 .f32) (h1 : a1.IsWhole) (a2 : Memref sig .tc .vmem S1024x1024 .f32) (h2 : a2.IsWhole) (a3 : Memref sig .tc .vmem S1x1 .f32) (h3 : a3.IsWhole) (a4 : Memref sig .tc .vmem S1x1 .f32) (h4 : a4.IsWhole) (hc0 : cond0_0 i) (hc1 : ¬cond0_1 i)
    (x0 x1 : Vec F S1024x1024 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S1024x1024) hz]

/-- A middle point: the accumulator is left at its old contents plus the block's sum. -/
theorem acc_middle (c : Dev nD) (i : grid0.Coords) (a1 : Memref sig .tc .vmem S1024x1024 .f32) (h1 : a1.IsWhole) (a2 : Memref sig .tc .vmem S1024x1024 .f32) (h2 : a2.IsWhole) (a3 : Memref sig .tc .vmem S1x1 .f32) (h3 : a3.IsWhole) (a4 : Memref sig .tc .vmem S1x1 .f32) (h4 : a4.IsWhole) (hc0 : ¬cond0_0 i) (hc1 : ¬cond0_1 i)
    (x0 x1 : Vec F S1024x1024 .f32) (xs0 : Vec F S1x1 .f32) :
    sout0_B_0 c i a1 h1 a2 h2 a3 h3 a4 h4 hc0 hc1 x0 x1 xs0 = k0_pay2 x0 x1 xs0 := by
  unfold sout0_B_0
  rw [View.read_writes_eq_canon _ _ _ (scover0_B_0 c i a1 h1 a2 h2 a3 h3 a4 h4 hc0 hc1 x0 x1 xs0)]
  unfold kernelRun0_B
  dsimp only
  rw [View.canon_unit_zero (S := S1x1) hz]
  simp only [View.readAt_eq_ld, h1.read_unread, h2.read_unread, h4.read_unread,
    View.ld_unit_zero (S := S1024x1024) hz, View.ld_unit_zero (S := S1x1) hz]

/-- The last point leaves the accumulator the same way, -/
theorem acc_last (c : Dev nD) (i : grid0.Coords) (a1 : Memref sig .tc .vmem S1024x1024 .f32) (h1 : a1.IsWhole) (a2 : Memref sig .tc .vmem S1024x1024 .f32) (h2 : a2.IsWhole) (a3 : Memref sig .tc .vmem S1x1 .f32) (h3 : a3.IsWhole) (a4 : Memref sig .tc .vmem S1x1 .f32) (h4 : a4.IsWhole) (hc0 : ¬cond0_0 i) (hc1 : cond0_1 i)
    (x0 x1 : Vec F S1024x1024 .f32) (xs0 : Vec F S1x1 .f32) :
    sout0_C_0 c i a1 h1 a2 h2 a3 h3 a4 h4 hc0 hc1 x0 x1 xs0 = k0_pay2 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero (S := S1x1) hz]
  simp only [View.readAt_eq_ld, h1.read_unread, h2.read_unread, h4.read_unread,
    View.ld_unit_zero (S := S1024x1024) hz, View.ld_unit_zero (S := S1x1) hz]

/-- and stores into the output's block the accumulator it has just left, divided. -/
theorem out_last (c : Dev nD) (i : grid0.Coords) (a1 : Memref sig .tc .vmem S1024x1024 .f32) (h1 : a1.IsWhole) (a2 : Memref sig .tc .vmem S1024x1024 .f32) (h2 : a2.IsWhole) (a3 : Memref sig .tc .vmem S1x1 .f32) (h3 : a3.IsWhole) (a4 : Memref sig .tc .vmem S1x1 .f32) (h4 : a4.IsWhole) (hc0 : ¬cond0_0 i) (hc1 : cond0_1 i)
    (x0 x1 : Vec F S1024x1024 .f32) (xs0 : Vec F S1x1 .f32) :
    out0_C_2 c i a1 h1 a2 h2 a3 h3 a4 h4 hc0 hc1 x0 x1 xs0 = k0_pay3 (k0_pay2 x0 x1 xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero (S := S1x1) hz, View.readCov_unit_zero (S := S1x1) _ hz]
  simp only [View.readAt_eq_ld, h1.read_unread, h2.read_unread, h4.read_unread,
    View.ld_unit_zero (S := S1024x1024) hz, View.ld_unit_zero (S := S1x1) hz]

end Cert.KernelIdeal.Cases

end
-- ==== Proof.CosineLoss.lean ====
/-
  The function both programs compute, over the extended reals.

  For two arrays X, Y of 16384 rows and 1024 columns, row r contributes
      2 - 2 · ( <X_r, Y_r> / ( max(√<X_r, X_r>, ε) · max(√<Y_r, Y_r>, ε) ) )
  (twice one minus the cosine of the two rows, the norms kept away from zero by ε), and the result is the sum of the
  16384 contributions divided by the single-precision value nearest 819.2 = 16384 · 0.05.

  The sum over all rows is also the sum, over the sixteen consecutive blocks of 1024 rows, of each block's sum: addition
  of extended reals is commutative and associative, so a regrouping costs nothing and needs no finiteness.
-/
import Idealize.ShloMosaic.PureOps.Ideal
import Idealize.ShloMosaic.Lib.ValueIdx

noncomputable section

open scoped BigOperators

namespace Cert.CosineLoss

open Idealize.ShloMosaic Idealize.ShloMosaic.ValueIdx

/-- The two words the row term is built from: 2.0 and ε (the single-precision value nearest 1e-8). -/
abbrev two : EReal := Ideal.ofBits .f32 0x40000000#32
abbrev eps : EReal := Ideal.ofBits .f32 0x322BCC77#32

/-- One row's contribution from its three inner products `d = <x, y>`, `a = <x, x>`, `b = <y, y>`. -/
def rowTerm (d a b : EReal) : EReal :=
  two - two * Ideal.div d (max (Ideal.sqrt a) eps * max (Ideal.sqrt b) eps)

/-- A 16384 × 1024 array of extended reals. -/
abbrev Arr : Type := (⟨2, ![16384, 1024]⟩ : Shape).Idx → EReal

/-- Row `r`'s contribution. -/
def rowLoss (X Y : Arr) (r : Fin 16384) : EReal :=
  rowTerm (∑ k : Fin 1024, X (ix2 r k) * Y (ix2 r k)) (∑ k : Fin 1024, X (ix2 r k) * X (ix2 r k))
    (∑ k : Fin 1024, Y (ix2 r k) * Y (ix2 r k))

/-- The same, indexed by a natural number (zero past the last row), so that blocks of rows are ranges. -/
def rowLossN (X Y : Arr) (n : ℕ) : EReal := if h : n < 16384 then rowLoss X Y ⟨n, h⟩ else 0

theorem rowLossN_of_lt (X Y : Arr) (n : ℕ) (h : n < 16384) : rowLossN X Y n = rowLoss X Y ⟨n, h⟩ := dif_pos h

/-- The sum of the contributions of block `t`: rows `1024 t` to `1024 t + 1023`. -/
def blockLoss (X Y : Arr) (t : ℕ) : EReal := ∑ r ∈ Finset.range 1024, rowLossN X Y (1024 * t + r)

/-- The sum of all 16384 contributions. -/
def total (X Y : Arr) : EReal := ∑ r : Fin 16384, rowLoss X Y r

/-- The result: the total divided by the word for 819.2. -/
def result (X Y : Arr) : EReal := Ideal.div (total X Y) (Ideal.ofBits .f32 0x444CCCCD#32)

/-- Consecutive blocks of `b` terms, `a` of them, are the first `b · a` terms. -/
theorem sum_blocks {M : Type*} [AddCommMonoid M] (f : ℕ → M) (b : ℕ) :
    ∀ a : ℕ, ∑ t ∈ Finset.range a, ∑ r ∈ Finset.range b, f (b * t + r) = ∑ n ∈ Finset.range (b * a), f n
  | 0 => by simp
  | a + 1 => by rw [Finset.sum_range_succ, sum_blocks f b a, Nat.mul_succ, Finset.sum_range_add]

/-- The sixteen block sums add up to the total. -/
theorem sum_blockLoss (X Y : Arr) : ∑ t ∈ Finset.range 16, blockLoss X Y t = total X Y := by
  unfold blockLoss total
  rw [sum_blocks (rowLossN X Y) 1024 16, Finset.sum_range]
  exact Finset.sum_congr rfl fun r _ => rowLossN_of_lt X Y r.val r.isLt

end Cert.CosineLoss

end
-- ==== Proof.BlockStep.lean ====
/-
  What one grid point's arithmetic does, read at the exact (extended-real) reading.

  The body holds a block x of 1024 rows of X and the matching block y of Y, and a one-entry accumulator. It forms, per
  row, the three inner products <x_r, y_r>, <x_r, x_r>, <y_r, y_r> (a product of the blocks summed along the lanes, laid
  out as a column), from them the row's contribution 2 - 2·cos, sums the 1024 contributions down the column, and adds
  that to the accumulator. At the last point the accumulator is divided by the word for 819.2.
  Here: each of those vector steps at an index, and the two stored values as plain sums.
-/
import proofs.«128544_j214748364897_2_alg».proof.Proof.Gen.KernelIdeal.Skeleton
import proofs.«128544_j214748364897_2_alg».proof.Proof.CosineLoss
import Idealize.ShloMosaic.Lib.ValueIdx
import Idealize.ShloMosaic.Lib.Pipeline.Value
import Idealize.ShloMosaic.PureOps.Ideal.Laws

noncomputable section

open scoped BigOperators

namespace Cert.KernelIdeal.BlockStep

open Cert.KernelIdeal Cert.KernelIdeal.Gen Idealize.ShloMosaic Idealize.ShloMosaic.ValueIdx Cert.CosineLoss

/-- A sum along the lanes, read at row `r`: the sum over the row's 1024 entries. -/
theorem laneSum_apply (v : FVec Ideal S1024x1024 .f32) (r : Fin 1024) :
    multiReduction .add [1] S1024 v 0x00000000#32 reduces_S1024x1024_S1024 (.inl rfl) rfl (ix1 r)
      = ∑ k : Fin 1024, v (ix2 r k) :=
  (Ideal.multiReduction_add_single v 0x00000000#32 reduces_S1024x1024_S1024 (.inl rfl) rfl (ix1 r)).trans
    (Finset.sum_congr rfl fun k _ => congrArg v (funext fun a => Fin.ext (by
      match a with | ⟨0, _⟩ => rfl | ⟨1, _⟩ => rfl)))

/-- A vector of 1024 numbers laid out as a column [1024, 1], read at (r, 0): entry `r`. -/
theorem column_apply (v : FVec Ideal S1024 .f32) (r : Fin 1024) (q : Fin 1) :
    shapeCast S1024x1 v shapeCasts_S1024_S1024x1 (ix2 r q) = v (ix1 r) :=
  shapeCast_apply v shapeCasts_S1024_S1024x1 (ix2 r q) (ix1 r) (by
    rw [Shape.rowMajor_val_one, Shape.rowMajor_val_two]
    have hq : q.val = 0 := by have := q.isLt; omega
    show r.val = r.val * 1 + q.val
    omega)

/-- A sum down a column [1024, 1], read at its one entry: the sum of the column's 1024 entries. -/
theorem columnSum_apply (w : FVec Ideal S1024x1 .f32) (q : Fin 1) :
    multiReduction .add [0] S1 w 0x00000000#32 reduces_S1024x1_S1 (.inl rfl) rfl (ix1 q)
      = ∑ r : Fin 1024, w (ix2 r q) :=
  (Ideal.multiReduction_add_single w 0x00000000#32 reduces_S1024x1_S1 (.inl rfl) rfl (ix1 q)).trans
    (Finset.sum_congr rfl fun r _ => congrArg w (funext fun a => Fin.ext (by
      match a with | ⟨0, _⟩ => rfl | ⟨1, _⟩ => rfl)))

/-- A one-entry vector [1] laid out as [1, 1], read at its entry. -/
theorem unit_apply (v : FVec Ideal S1 .f32) (p q : Fin 1) :
    shapeCast S1x1 v shapeCasts_S1_S1x1 (ix2 p q) = v (ix1 q) :=
  shapeCast_apply v shapeCasts_S1_S1x1 (ix2 p q) (ix1 q) (by
    rw [Shape.rowMajor_val_one, Shape.rowMajor_val_two]
    have hp : p.val = 0 := by have := p.isLt; omega
    show q.val = p.val * 1 + q.val
    omega)

/-- The column of per-row inner products of two blocks. -/
def rowDots (u v : FVec Ideal S1024x1024 .f32) : FVec Ideal S1024x1 .f32 :=
  shapeCast S1024x1 (multiReduction .add [1] S1024 (mulf u v) 0x00000000#32 reduces_S1024x1024_S1024 (.inl rfl) rfl)
    shapeCasts_S1024_S1024x1

theorem rowDots_apply (u v : FVec Ideal S1024x1024 .f32) (r : Fin 1024) (q : Fin 1) :
    rowDots u v (ix2 r q) = ∑ k : Fin 1024, u (ix2 r k) * v (ix2 r k) :=
  (column_apply _ r q).trans (laneSum_apply (mulf u v) r)

/-- The column of the 1024 rows' contributions. -/
def rowTerms (x y : FVec Ideal S1024x1024 .f32) : FVec Ideal S1024x1 .f32 :=
  subf (broadcast S1024x1 (Scalar.ofBits .f32 0x40000000#32))
    (mulf (broadcast S1024x1 (Scalar.ofBits .f32 0x40000000#32))
      (divf (rowDots x y)
        (mulf (maximumf (sqrt (rowDots x x)) (broadcast S1024x1 (Scalar.ofBits .f32 0x322BCC77#32)))
          (maximumf (sqrt (rowDots y y)) (broadcast S1024x1 (Scalar.ofBits .f32 0x322BCC77#32))))))

theorem rowTerms_apply (x y : FVec Ideal S1024x1024 .f32) (r : Fin 1024) (q : Fin 1) :
    rowTerms x y (ix2 r q)
      = rowTerm (∑ k : Fin 1024, x (ix2 r k) * y (ix2 r k)) (∑ k : Fin 1024, x (ix2 r k) * x (ix2 r k))
          (∑ k : Fin 1024, y (ix2 r k) * y (ix2 r k)) := by
  show two - two * Ideal.div (rowDots x y (ix2 r q))
    (max (Ideal.sqrt (rowDots x x (ix2 r q))) eps * max (Ideal.sqrt (rowDots y y (ix2 r q))) eps) = _
  rw [rowDots_apply, rowDots_apply, rowDots_apply]
  rfl

/-- The accumulating store's value is the accumulator plus the sum of the block's 1024 contributions. -/
theorem accumulate_eq (x y : Vec Ideal S1024x1024 .f32) (acc : Vec Ideal S1x1 .f32) :
    k0_pay2 x y acc
      = shapeCast S1x1 (addf acc (shapeCast S1x1
          (multiReduction .add [0] S1 (rowTerms x y) 0x00000000#32 reduces_S1024x1_S1 (.inl rfl) rfl) shapeCasts_S1_S1x1))
          shapeCasts_S1x1_S1x1 := rfl

theorem accumulate_apply (x y : Vec Ideal S1024x1024 .f32) (acc : Vec Ideal S1x1 .f32) (j : S1x1.Idx) :
    k0_pay2 x y acc j
      = acc j + ∑ r : Fin 1024, rowTerm (∑ k : Fin 1024, x (ix2 r k) * y (ix2 r k))
          (∑ k : Fin 1024, x (ix2 r k) * x (ix2 r k)) (∑ k : Fin 1024, y (ix2 r k) * y (ix2 r k)) := by
  obtain ⟨p, q, rfl⟩ : ∃ (p q : Fin 1), j = ix2 p q := ⟨j 0, j 1, eq_ix2 j⟩
  rw [accumulate_eq, shapeCast_self]
  show acc (ix2 p q) + shapeCast S1x1 _ shapeCasts_S1_S1x1 (ix2 p q) = _
  rw [unit_apply, columnSum_apply]
  exact congrArg (acc (ix2 p q) + ·) (Finset.sum_congr rfl fun r _ => rowTerms_apply x y r q)

/-- The value stored at the first point before accumulating: zero. -/
theorem reset_apply (j : S1x1.Idx) : k0_pay1 (F := Ideal) j = 0 := by
  unfold k0_pay1
  rw [shapeCast_self]
  exact Ideal.ofBits_zero_f32

/-- The value stored into the output at the last point: the accumulator divided by the word for 819.2. -/
theorem scale_apply (acc : Vec Ideal S1x1 .f32) (j : S1x1.Idx) :
    k0_pay3 acc j = Ideal.div (acc j) (Ideal.ofBits .f32 0x444CCCCD#32) := rfl

end Cert.KernelIdeal.BlockStep

end
-- ==== Proof.Accumulate.lean ====
/-
  The accumulator across the sixteen grid points.

  Grid point t stages rows 1024 t … 1024 t + 1023 of X and of Y, so the sum the body forms at point t is the sum of
  those rows' contributions. By induction on the point, the accumulator after point n holds the sum of the first n + 1
  block sums (the first point starts it from zero); after the last point that is the sum over all 16384 rows, and what
  the last point stores into the output's block is that sum divided by the word for 819.2: the result.
-/
import proofs.«128544_j214748364897_2_alg».proof.Proof.Cases
import proofs.«128544_j214748364897_2_alg».proof.Proof.BlockStep
import proofs.«128544_j214748364897_2_alg».proof.Proof.CosineLoss

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx Cert.CosineLoss Cert.KernelIdeal.Cases Cert.KernelIdeal.BlockStep

variable (m : (ℓ : Loc nD τ sig) → Buf (Elt Ideal) ℓ)

/-- The two argument arrays on core `c`. -/
abbrev argX (c : Dev nD) : Arr := m ((c : Thread nD τ).loc main_arg0)
abbrev argY (c : Dev nD) : Arr := m ((c : Thread nD τ).loc main_arg1)

/-- Where the two input windows sit at point `t`: block row `t`, block column 0. -/
theorem index_X : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index_Y : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem row_lt (t : Fin cfg0.N) (r : Fin 1024) : 1024 * t.val + r.val < 16384 := by
  have hN : t.val < 16 := lt_of_lt_of_eq t.isLt (show cfg0.N = 16 from N_0)
  have := r.isLt
  omega

/-- Entry (r, k) of X's block at point `t` is entry (1024 t + r, k) of X. -/
theorem blockX_apply (c : Dev nD) (t : Fin cfg0.N) (r : Fin 1024) (k : Fin 1024) :
    (iblk m c 0 t : Vec Ideal S1024x1024 .f32) (ix2 r k) = argX m c (ix2 ⟨1024 * t.val + r.val, row_lt t r⟩ k) := by
  unfold iblk
  rw [View.read_apply]
  show V m c main_arg0 _ = m ((c : Thread nD τ).loc main_arg0) _
  rw [V_main_arg0]
  refine congrArg (m ((c : Thread nD τ).loc main_arg0)) (funext fun a => Fin.ext ?_)
  match a with
  | ⟨0, _⟩ => show win0_0.index t 0 * 1024 + 1 * r.val = 1024 * t.val + r.val; rw [(index_X t).1]; omega
  | ⟨1, _⟩ => show win0_0.index t 1 * 1024 + 1 * k.val = k.val; rw [(index_X t).2]; omega

/-- Entry (r, k) of Y's block at point `t` is entry (1024 t + r, k) of Y. -/
theorem blockY_apply (c : Dev nD) (t : Fin cfg0.N) (r : Fin 1024) (k : Fin 1024) :
    (iblk m c 1 t : Vec Ideal S1024x1024 .f32) (ix2 r k) = argY m c (ix2 ⟨1024 * t.val + r.val, row_lt t r⟩ k) := by
  unfold iblk
  rw [View.read_apply]
  show V m c main_arg1 _ = m ((c : Thread nD τ).loc main_arg1) _
  rw [V_main_arg1]
  refine congrArg (m ((c : Thread nD τ).loc main_arg1)) (funext fun a => Fin.ext ?_)
  match a with
  | ⟨0, _⟩ => show win0_1.index t 0 * 1024 + 1 * r.val = 1024 * t.val + r.val; rw [(index_Y t).1]; omega
  | ⟨1, _⟩ => show win0_1.index t 1 * 1024 + 1 * k.val = k.val; rw [(index_Y t).2]; omega

/-- The sum the body forms from two blocks that are rows `1024 t …` of X and of Y is block `t`'s sum of contributions. -/
theorem block_sum (c : Dev nD) (t : Fin cfg0.N) (x y : Vec Ideal S1024x1024 .f32)
    (hx : ∀ (r k : Fin 1024), x (ix2 r k) = argX m c (ix2 ⟨1024 * t.val + r.val, row_lt t r⟩ k))
    (hy : ∀ (r k : Fin 1024), y (ix2 r k) = argY m c (ix2 ⟨1024 * t.val + r.val, row_lt t r⟩ k)) :
    ∑ r : Fin 1024, rowTerm (∑ k : Fin 1024, x (ix2 r k) * y (ix2 r k)) (∑ k : Fin 1024, x (ix2 r k) * x (ix2 r k))
        (∑ k : Fin 1024, y (ix2 r k) * y (ix2 r k))
      = blockLoss (argX m c) (argY m c) t.val := by
  unfold blockLoss
  rw [Finset.sum_range]
  refine Finset.sum_congr rfl fun r _ => ?_
  rw [rowLossN_of_lt _ _ _ (row_lt t r)]
  unfold rowLoss
  simp only [hx, hy]

/-- What the accumulator holds after the body at point `n`: the sum of the first `n + 1` block sums. -/
theorem acc_after (c : Dev nD) : ∀ (n : ℕ) (h : n < cfg0.N) (j : S1x1.Idx),
    (outsAt0 m c n h).2 j = ∑ t ∈ Finset.range (n + 1), blockLoss (argX m c) (argY m c) t
  | 0, h, j => by
    rw [outsAt0_A m c ⟨0, h⟩ rfl (by dsimp only; omega)]
    dsimp only
    rw [acc_first, accumulate_apply, reset_apply, zero_add, Finset.sum_range_one]
    exact block_sum m c ⟨0, h⟩ _ _ (blockX_apply m c ⟨0, h⟩) (blockY_apply m c ⟨0, h⟩)
  | n + 1, h, j => by
    have hN : n + 1 < 16 := lt_of_lt_of_eq h (show cfg0.N = 16 from N_0)
    have h0 : ¬(n + 1) % 16 = 0 := by omega
    rw [Finset.sum_range_succ, ← acc_after c n (Nat.lt_of_succ_lt h) j]
    by_cases h1 : (n + 1) % 16 = 15
    · rw [outsAt0, dif_neg h0, dif_pos h1]
      dsimp only
      rw [acc_last, accumulate_apply]
      exact congrArg (_ + ·) (block_sum m c ⟨n + 1, h⟩ _ _ (blockX_apply m c ⟨n + 1, h⟩) (blockY_apply m c ⟨n + 1, h⟩))
    · rw [outsAt0, dif_neg h0, dif_neg h1]
      dsimp only
      rw [acc_middle, accumulate_apply]
      exact congrArg (_ + ·) (block_sum m c ⟨n + 1, h⟩ _ _ (blockX_apply m c ⟨n + 1, h⟩) (blockY_apply m c ⟨n + 1, h⟩))

/-- What the last point stores into the output's block: the result. -/
theorem out_after_last (c : Dev nD) (h : 15 < cfg0.N) (j : S1x1.Idx) :
    (outsAt0 m c 15 h).1 j = result (argX m c) (argY m c) := by
  rw [show outsAt0 m c 15 h = outsAt0 m c (14 + 1) h from rfl, outsAt0, dif_neg (by omega), dif_pos (by omega)]
  dsimp only
  rw [out_last, scale_apply, accumulate_apply, acc_after m c 14 _ j,
    block_sum m c ⟨14 + 1, h⟩ _ _ (blockX_apply m c ⟨14 + 1, h⟩) (blockY_apply m c ⟨14 + 1, h⟩)]
  show Ideal.div (∑ t ∈ Finset.range (14 + 1), blockLoss (argX m c) (argY m c) t + blockLoss (argX m c) (argY m c) (14 + 1)) _ = _
  rw [← Finset.sum_range_succ, sum_blockLoss]
  rfl

end Cert.KernelIdeal.Accum

end
-- ==== Proof.KernelValue.lean ====
/-
  What the idealized kernel's program returns.

  The output window has one block, the whole [1, 1] array, written back once, after the last grid point; what is written
  back is what the last point stored: the result. The program then re-lays that one-entry array as a scalar, which
  keeps the entry. So every run ends with the scalar result at the function of CosineLoss of the two argument arrays,
  and the arguments as they were.
-/
import proofs.«128544_j214748364897_2_alg».proof.Proof.Accumulate
import Idealize.ShloMosaic.Lib.Pipeline.Value
import Idealize.ShloMosaic.Lib.StableHlo.Run
import Idealize.ShloMosaic.Lib.Tactic

noncomputable section

namespace Cert.KernelIdeal.KernelValue

open Cert.KernelIdeal Cert.KernelIdeal.Gen Idealize.ShloMosaic Idealize.ShloMosaic.TcCoe Idealize.SL.Sem
open Idealize.ShloMosaic.Pipeline (Dat)
open Idealize.ShloMosaic.ValueIdx Cert.CosineLoss Cert.KernelIdeal.Accum

variable (m : (ℓ : Loc nD τ sig) → Buf (Elt Ideal) ℓ) (ρ : Dev nD → PrngReg)

/-- The [1, 1] output array holding the result. -/
abbrev outArr (c : Dev nD) : Buf (Elt Ideal) ((c : Thread nD τ).loc main_v0) :=
  fun _ => result (argX m c) (argY m c)

/-- The one write-back, after point 15, writes the result. -/
theorem flushed_eq (c : Dev nD) (t : Fin cfg0.N) (hf : (cfg0.win 2).flush t = true) :
    (dats m 0 c).flushed 2 t = ((cfg0.win 2).blk t).view.read (Elt Ideal) (outArr m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2]
  funext y
  rw [View.read_apply]
  exact out_after_last m c _ y

/-- So the output array ends holding the result: that one block is the whole array. -/
theorem final_out (c : Dev nD) : (dats m 0 c).arrAt 2 cfg0.N = outArr m c :=
  (dats m 0 c).arrAt_eq_of_cover 2 (outArr m c) (flushed_eq m c) fun i =>
    ⟨t0_15, (flush0_2 t0_15).mpr rfl, by
      show i ∈ ((View.whole main_v0).slice (win0_2.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 1 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 1 from by decide +kernel]; omega⟩

/-- The scalar the program returns: the output array's entry, re-laid. -/
theorem returned_eq (c : Dev nD) :
    Pipeline.afterTail₀ cfgs (dats m) 0 (V0 m) [hostOps1] c main_v1 = fun _ => result (argX m c) (argY m c) := by
  unfold Pipeline.afterTail₀
  show StableHlo.after hostOps1 _ (Proc.devRef .tc main_v1) = _
  after_results
  funext i
  show shapeCast S_ (Pipeline.withArrays spec0 c (V0 m c) (fun w => (dats m 0 c).arrAt w cfg0.N) (Proc.devRef .tc main_v0))
    shapeCasts_S1x1_S_ i = _
  rw [show Pipeline.withArrays spec0 c (V0 m c) (fun w => (dats m 0 c).arrAt w cfg0.N) (Proc.devRef .tc main_v0) = outArr m c from
    (Pipeline.withArrays_arr spec0 launch0.win.arr_inj c _ _ 2).trans (final_out m c)]
  rfl

/-- The returned scalar's buffer is none of the pipeline's three arrays. -/
theorem returned_mem : main_v1 ∈ Pipeline.restRefs sig (cfgs 0).spec :=
  Pipeline.mem_restRefs_of main_v1 (by decide) (by decide)

/-- The run, read: the returned scalar at the result, the two arguments unchanged. -/
theorem run : θ_run defs (onTc (τ := τ) (main (F := Ideal))) ⟨m, fun _ => 0, ρ⟩ fun r => ∀ c : Dev nD,
      r.2.mem ((c.tc : Thread nD τ).loc main_v1) = (fun _ => result (argX m c) (argY m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v1 returned_mem).trans (returned_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelValue

end
-- ==== Proof.MeanScale.lean ====
/-
  Dividing a number by 16384 and then by the single-precision value nearest 0.05 is dividing it once by their product,
  and that product is again a single-precision value, the one nearest 819.2: the two words 0x3D4CCCCD and 0x444CCCCD
  carry the same 24-bit significand 13421773, and their exponents differ by 14, so the second denotes exactly
  2^14 times the first. On the extended reals a quotient by a nonzero real is the product with its reciprocal, and
  products associate, so the law needs nothing of the number divided: it may be infinite.
-/
import Idealize.ShloMosaic.PureOps.Ideal
import Idealize.ShloMosaic.PureOps.Ideal.Laws

noncomputable section

namespace Cert.MeanScale

open Idealize.ShloMosaic

/-- The word 0x46800000 denotes 2^14 = 16384, the number of rows. -/
theorem word_rows : Ideal.ofBits .f32 0x46800000#32 = ((16384 : ℝ) : EReal) := by
  simp [Ideal.ofBits, Ideal.ieee, -EReal.coe_mul]; norm_num

/-- The word 0x3D4CCCCD (the single-precision value nearest 0.05) denotes 13421773 · 2^-28. -/
theorem word_temperature : Ideal.ofBits .f32 0x3D4CCCCD#32 = ((13421773 / 268435456 : ℝ) : EReal) := by
  simp [Ideal.ofBits, Ideal.ieee, -EReal.coe_mul]; norm_num

/-- The word 0x444CCCCD (the single-precision value nearest 819.2) denotes 13421773 · 2^-14. -/
theorem word_scale : Ideal.ofBits .f32 0x444CCCCD#32 = ((13421773 / 16384 : ℝ) : EReal) := by
  simp [Ideal.ofBits, Ideal.ieee, -EReal.coe_mul]; norm_num

/-- The mean over 16384 rows divided by the temperature word is the sum divided by the scale word,
    for every extended real `s`: `(s / 2^14) / (q · 2^-28) = s / (q · 2^-14)`. -/
theorem div_rows_div_temperature (s : EReal) :
    Ideal.div (Ideal.div s (Ideal.ofBits .f32 0x46800000#32)) (Ideal.ofBits .f32 0x3D4CCCCD#32)
      = Ideal.div s (Ideal.ofBits .f32 0x444CCCCD#32) := by
  rw [word_rows, word_temperature, word_scale, Ideal.div_coe (by norm_num), Ideal.div_coe (by norm_num),
    Ideal.div_coe (by norm_num), mul_assoc, ← EReal.coe_mul]
  norm_num

end Cert.MeanScale

end
-- ==== Proof.RefValue.lean ====
/-
  The reference computes the same function.

  Read one operation at a time, entry r of the reference's vector of contributions is two minus two times the quotient
  of (0 + the row's inner product <X_r, Y_r>) by the product of the two norms, each the larger of ε and the square root
  of (0 + <X_r, X_r>), resp. (0 + <Y_r, Y_r>): the row's contribution, the host's sums starting from zero. Its result is
  (0 + the sum of the 16384 entries) divided by 16384 and then by the word for 0.05, which is the sum divided once by
  the word for 819.2.
-/
import proofs.«128544_j214748364897_2_alg».proof.Proof.Gen.ReferenceIdeal.Read
import proofs.«128544_j214748364897_2_alg».proof.Proof.CosineLoss
import proofs.«128544_j214748364897_2_alg».proof.Proof.MeanScale
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.CosineLoss

/-- A vector's indices are its one coordinate. -/
def idxEquiv1 {n : Nat} : (⟨1, ![n]⟩ : Shape).Idx ≃ Fin n where
  toFun i := i 0
  invFun := ix1
  left_inv i := (eq_ix1 i).symm
  right_inv _ := rfl

/-- … so a sum over them is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The entry of X the reference's row sums read at (row r, term k). -/
theorem idx_row (r : Fin 16384) (k : Fin 1024) : idx_main_v1 (ix1 r) k = ix2 r k :=
  funext fun a => Fin.ext (by match a with | ⟨0, _⟩ => rfl | ⟨1, _⟩ => rfl)
theorem idx_row0 (r : Fin 16384) (k : Fin 1024) : idx_main_call0_v1 (ix1 r) k = ix2 r k :=
  funext fun a => Fin.ext (by match a with | ⟨0, _⟩ => rfl | ⟨1, _⟩ => rfl)
theorem idx_row1 (r : Fin 16384) (k : Fin 1024) : idx_main_call1_v1 (ix1 r) k = ix2 r k :=
  funext fun a => Fin.ext (by match a with | ⟨0, _⟩ => rfl | ⟨1, _⟩ => rfl)

/-- Entry r of the reference's vector of contributions is row r's contribution. -/
theorem contribution_apply (X Y : Arr) (r : Fin 16384) :
    val_main_v13 (F := Ideal) X Y (ix1 r) = rowLoss X Y r := by
  rw [val_main_v13_apply, val_main_v12_apply, val_main_cst_3_apply, val_main_v11_apply, val_main_v10_apply,
    val_main_cst_2_apply, val_main_v9_apply, val_main_v1_apply, val_main_cst_apply, val_main_v8_apply,
    val_main_v5_apply, val_main_v7_apply, val_main_v2_apply, val_main_v3_apply, val_main_v4_apply, val_main_v6_apply,
    val_main_cst_0_apply, val_main_cst_1_apply, val_main_call0_v1_apply, val_main_call1_v1_apply,
    val_main_call0_cst_apply, val_main_call1_cst_apply]
  simp only [val_main_v0_apply, val_main_call0_v0_apply, val_main_call1_v0_apply, idx_row, idx_row0, idx_row1,
    Ideal.ofBits_def, Ideal.mulf_def, Ideal.subf_def, Ideal.maximumf_def, Ideal.hostDivf_def, Ideal.hostUnary_sqrt_def,
    Ideal.ofBits_zero_f32, zero_add]
  rfl

/-- The reference's sum of the contributions is the total. -/
theorem total_apply (X Y : Arr) (i : S_.Idx) : val_main_v14 (F := Ideal) X Y i = total X Y := by
  rw [val_main_v14_apply, val_main_cst_4_apply, Ideal.ofBits_def, Ideal.ofBits_zero_f32, zero_add, sum_idx1]
  exact Finset.sum_congr rfl fun r _ => contribution_apply X Y r

/-- The reference's result is the result. -/
theorem result_eq (X Y : Arr) : val_main_v16 (F := Ideal) X Y = fun _ => result X Y := by
  funext i
  rw [val_main_v16_apply, val_main_v15_apply, val_main_cst_6_apply, val_main_cst_5_apply, total_apply]
  simp only [Ideal.hostDivf_def, Ideal.ofBits_def]
  exact Cert.MeanScale.div_rows_div_temperature _

end Cert.ReferenceIdeal.RefValue

end
-- ==== Proof.lean ====
/-
  A mean-of-cosine-distances loss: for two arrays X, Y of 16384 rows and 1024 columns, the mean over the rows of
  2 - 2·cos(X_r, Y_r) (norms kept above ε), divided by a temperature 0.05.

  The kernel streams sixteen blocks of 1024 rows, adds each block's sum of contributions into a one-entry accumulator
  (started at zero at the first block) and, after the last block, divides the accumulator by the single-precision value
  nearest 819.2 = 16384 · 0.05. The reference sums all 16384 contributions, divides by 16384 and then by the
  single-precision value nearest 0.05. Over the extended reals the two agree for every input: the per-row terms are the
  same expression, a sum may be regrouped into blocks freely, and dividing by 2^14 and then by q · 2^-28 is dividing by
  q · 2^-14, the two float words having the same significand q = 13421773. None of this uses finiteness of the inputs.

  The modules: CosineLoss (the function, and the regrouping of the sum), MeanScale (the two divisions as one),
  BlockStep (the body's arithmetic at an index), Cases (what each control case of the body leaves), Accumulate (the
  accumulator by induction over the grid points), KernelValue (the kernel's run ends at the function), RefValue (the
  reference's last stage is the function). The three frames are the generated ones; the idealization rewrote nothing.
-/
import proofs.«128544_j214748364897_2_alg».proof.Defs
import proofs.«128544_j214748364897_2_alg».proof.Proof.Gen.Kernel
import proofs.«128544_j214748364897_2_alg».proof.Proof.Gen.Kernel.Frame
import proofs.«128544_j214748364897_2_alg».proof.Proof.Gen.KernelIdeal
import proofs.«128544_j214748364897_2_alg».proof.Proof.Gen.KernelIdeal.Frame
import proofs.«128544_j214748364897_2_alg».proof.Proof.Gen.ReferenceIdeal
import proofs.«128544_j214748364897_2_alg».proof.Proof.Gen.ReferenceIdeal.Run
import proofs.«128544_j214748364897_2_alg».proof.Proof.Gen.ReferenceIdeal.Read
import proofs.«128544_j214748364897_2_alg».proof.Proof.Gen.Pre_finite_inputs
import proofs.«128544_j214748364897_2_alg».proof.Proof.KernelValue
import proofs.«128544_j214748364897_2_alg».proof.Proof.RefValue
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on X and Y both programs end with the same extended real: the kernel's returned scalar
    is the function of CosineLoss of its arguments, and so is the reference's last stage of its own. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.CosineLoss.result (Cert.KernelIdeal.Accum.argX m c) (Cert.KernelIdeal.Accum.argY m c),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
